-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x2 .f32) (main_arg5 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x256 : Shape := ⟨2, ![10000, 256]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 80
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S100000x2, .f32⟩
  | .hbm, ⟨60, _⟩ => ⟨S_, .i32⟩
  | .hbm, ⟨61, _⟩ => ⟨S3300000, .i32⟩
  | .hbm, ⟨62, _⟩ => ⟨S3300000, .i1⟩
  | .hbm, ⟨63, _⟩ => ⟨S_, .i32⟩
  | .hbm, ⟨64, _⟩ => ⟨S3300000, .i32⟩
  | .hbm, ⟨65, _⟩ => ⟨S3300000, .i32⟩
  | .hbm, ⟨66, _⟩ => ⟨S3300000, .i32⟩
  | .hbm, ⟨67, _⟩ => ⟨S3300000x1, .i32⟩
  | .hbm, ⟨68, _⟩ => ⟨S3300000x2, .f32⟩
  | .hbm, ⟨69, _⟩ => ⟨S3300000x1, .f32⟩
  | .hbm, ⟨70, _⟩ => ⟨S3300000x2, .f32⟩
  | .hbm, ⟨71, _⟩ => ⟨S3300000x2, .f32⟩
  | .hbm, ⟨72, _⟩ => ⟨S_, .f32⟩
  | .hbm, ⟨73, _⟩ => ⟨S100000x2, .f32⟩
  | .hbm, ⟨74, _⟩ => ⟨S3300000x1, .i32⟩
  | .hbm, ⟨75, _⟩ => ⟨S100000x2, .f32⟩
  | .hbm, ⟨76, _⟩ => ⟨S1x2, .f32⟩
  | .hbm, ⟨77, _⟩ => ⟨S100000x2, .f32⟩
  | .hbm, ⟨78, _⟩ => ⟨S100000x2, .f32⟩
  | .hbm, ⟨79, _⟩ => ⟨S100000x2, .f32⟩
  | .local _ .vmem, ⟨0, _⟩ => ⟨S10000x256, .f32⟩
  | .local _ .vmem, ⟨1, _⟩ => ⟨S10000x256, .f32⟩
  | .local _ .vmem, ⟨2, _⟩ => ⟨S256x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x2, .f32⟩
  | .local _ .vmem, ⟨8, _⟩ => ⟨S10000x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S10000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  shapeCasts_S10000x2_S10000x2 : S10000x2.ShapeCasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x16_S10000x16_1_0_0_1_n_n_wf : DotDims.WF S10000x256 S256x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x2.size a ≤ S100000x2.size a
  hwx2_1 : ∀ i : grid2.Coords, EltTy.bits .f32 = 32 ∨ (Rect.block (s := S100000x2) S10000x2.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S10000x2.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S_, .f32⟩
  | .hbm, ⟨63, _⟩ => ⟨S3300000, .f32⟩
  | .hbm, ⟨64, _⟩ => ⟨S_, .f32⟩
  | .hbm, ⟨65, _⟩ => ⟨S100000, .f32⟩
  | .hbm, ⟨66, _⟩ => ⟨S3300000x1, .i32⟩
  | .hbm, ⟨67, _⟩ => ⟨S100000, .f32⟩
  | .hbm, ⟨68, _⟩ => ⟨S100000, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000, .f32⟩
  | .hbm, ⟨87, _⟩ => ⟨S3300000, .f32⟩
  | .hbm, ⟨88, _⟩ => ⟨S100000x2, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x2, .f32⟩
  | .hbm, ⟨98, _⟩ => ⟨S3300000x1, .f32⟩
  | .hbm, ⟨99, _⟩ => ⟨S3300000x2, .f32⟩
  | .hbm, ⟨100, _⟩ => ⟨S3300000x2, .f32⟩
  | .hbm, ⟨101, _⟩ => ⟨S_, .f32⟩
  | .hbm, ⟨102, _⟩ => ⟨S100000x2, .f32⟩
  | .hbm, ⟨103, _⟩ => ⟨S3300000x1, .i32⟩
  | .hbm, ⟨104, _⟩ => ⟨S100000x2, .f32⟩
  | .hbm, ⟨105, _⟩ => ⟨S1x2, .f32⟩
  | .hbm, ⟨106, _⟩ => ⟨S100000x2, .f32⟩
  | .hbm, ⟨107, _⟩ => ⟨S100000x2, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x2, .f32⟩
  | .hbm, ⟨115, _⟩ => ⟨S100000x2, .f32⟩
  | .hbm, ⟨116, _⟩ => ⟨S100000x2, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x2, .f32⟩
  | .hbm, ⟨122, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v82 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run with its result named.

  The program is three tiled stages among stretches of whole-array operations. Its run passes through seven boundaries; at
  each the contents of every array are known as a fold from the launch memory: a stretch of whole-array operations
  applies them in order, a tiled stage leaves in each of its arrays what its write-backs add up to and every other array
  as it found it. Here the run is stated once more with the last boundary's contents read at the result array as well
  as at the six arguments, so that the value of the result can be followed back through the fold.
-/
import proofs.«107536_j23244363006342_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result array at the last boundary's
    contents and the six argument arrays as launched. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Hand

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«107536_j23244363006342_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«107536_j23244363006342_2_alg».proof.Proof.LibDenseRows
import proofs.«107536_j23244363006342_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Stage0.lean ====
/-
  The first tiled stage: rows times a weight matrix.

  The stage cuts the 100000 rows of its left operand into ten blocks of 10000 rows, and at each block multiplies the
  block by the whole 256 x 16 weight matrix into a zero accumulator. An entry (r, j) of the product depends only on
  row r of the left operand, so the ten output blocks are the restrictions of ONE whole-array function,
  (r, j) ↦ ∑ₖ x (r, k) · w (k, j); the blocks tile the output, so that function is what the output array ends holding.
-/
import proofs.«107536_j23244363006342_2_alg».proof.Proof.Gen.KernelIdeal.Frame
import proofs.«107536_j23244363006342_2_alg».proof.Proof.LibPlainLayers
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- Rows times a weight matrix, entry by entry. -/
def rowsTimes16 (x : FVec Ideal S100000x256 .f32) (w : FVec Ideal S256x16 .f32) : FVec Ideal S100000x16 .f32 :=
  fun i => ∑ k : Fin 256, x (ix2 (i 0) k) * w (ix2 k (i 1))

/-- The stage's body at an entry (p, q) of a block: the plain sum over k. The narrowing of both operands before the
    product is the identity on the extended reals. -/
theorem body0_apply (x0 : FVec Ideal S10000x256 .f32) (x1 : FVec Ideal S256x16 .f32) (p : Fin 10000) (q : Fin 16) :
    k0_pay1 (F := Ideal) x0 x1 (ix2 p q) = ∑ k : Fin 256, x0 (ix2 p k) * x1 (ix2 k q) := by
  unfold k0_pay1
  exact Cert.PlainLayers.plainMM_of_eq dot_S10000x256_S256x16_S10000x16_1_0_0_1_n_n rfl none _ _ p q

/-- One block's entry against the whole-array function: when row (j 0) of the left block is row (i 0) of the array and
    the right block is the weight matrix, with matching columns, the body at j is the function at i. -/
theorem block0_apply (x0 : FVec Ideal S10000x256 .f32) (x1 : FVec Ideal S256x16 .f32)
    (X : FVec Ideal S100000x256 .f32) (W : FVec Ideal S256x16 .f32) (j : S10000x16.Idx) (i : S100000x16.Idx)
    (h0 : ∀ k : Fin 256, x0 (ix2 (j 0) k) = X (ix2 (i 0) k)) (h1 : ∀ k : Fin 256, x1 (ix2 k (j 1)) = W (ix2 k (i 1))) :
    k0_pay1 (F := Ideal) x0 x1 j = rowsTimes16 X W i := by
  rw [eq_ix2 j]
  refine (body0_apply x0 x1 (j 0) (j 1)).trans ?_
  exact Finset.sum_congr rfl fun k _ => congrArg₂ (· * ·) (h0 k) (h1 k)

/-- The printed block positions, decided over the ten grid points: the left operand's block moves with the output's
    along the rows and sits at column block 0; the weight matrix is always block (0, 0); the output's column block is 0. -/
theorem positions0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every row block of the output is some grid point's. -/
theorem onto0 : ∀ q0 : Fin 10, ∃ t : Fin cfg0.N, win0_2.index t (0 : Fin 2) = q0.val :=
  (by decide +kernel : ∀ q0 : Fin 10, ∃ t : Fin grid0.N, win0_2.index t (0 : Fin 2) = q0.val)

/-- What grid point t writes back is block t of the whole-array function of the arrays the stage finds. -/
theorem flushed0_eq (c : Dev nD) (t : Fin cfg0.N) :
    (dat0 V c).flushed 2 t = ((cfg0.win 2).blk t).view.read (Elt Ideal) (rowsTimes16 (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x256) zeroOffsets, View.ld_unit_zero (S := S256x16) zeroOffsets]
  obtain ⟨e0, e1, e2, e3, e4⟩ := positions0 t
  funext j
  show k0_pay1 (F := Ideal) (iblk0 V c 0 t) (iblk0 V c 1 t) j = rowsTimes16 (V c main_arg0) (V c main_arg2) (((cfg0.win 2).blk t).view.emb j)
  refine block0_apply _ _ _ _ j _ (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v27).slice (win0_2.rect t)).set ↔ _
  rw [View.set_slice_whole, Rect.mem_set_unit]
  exact Iff.rfl

/-- The output array after the stage: the whole-array function of the arrays the stage finds (row r is in row block
    r / 10000). -/
theorem array0 (c : Dev nD) : (dat0 V c).arrAt 2 cfg0.N = rowsTimes16 (V c main_arg0) (V c main_arg2) :=
  (dat0 V c).arrAt_eq_of_cover 2 _ (fun t _ => flushed0_eq V c t) fun i => by
    have hi0 : (i 0).val < 100000 := (i 0).isLt
    have hi1 : (i 1).val < 16 := (i 1).isLt
    obtain ⟨t, ht⟩ := onto0 ⟨(i 0).val / 10000, by omega⟩
    obtain ⟨e0, e1, e2, e3, e4⟩ := positions0 t
    have q0 : win0_2.index t (0 : Fin 2) = (i 0).val / 10000 := ht
    refine ⟨t, flush0_2 t, ?_⟩
    rw [mem_blk0]
    intro a
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 16 ≤ (i 1).val ∧ (i 1).val < win0_2.index t (1 : Fin 2) * 16 + 16; omega

end Cert.KernelIdeal.Hand

end
-- ==== Proof.Stage1.lean ====
/-
  The second tiled stage: cut at zero, then rows times a weight matrix.

  The stage cuts the 100000 rows of its left operand into ten blocks of 10000 rows; at each block it takes the maximum
  of every entry with zero and multiplies the result by the whole 16 x 2 weight matrix into a zero accumulator. Entry
  (r, j) depends only on row r of the left operand: the ten output blocks are the restrictions of ONE whole-array
  function, (r, j) ↦ ∑ₖ max (h (r, k)) 0 · w (k, j), which is what the output array ends holding.
-/
import proofs.«107536_j23244363006342_2_alg».proof.Proof.Gen.KernelIdeal.Frame
import proofs.«107536_j23244363006342_2_alg».proof.Proof.LibPlainLayers
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- Cut at zero, then rows times a weight matrix, entry by entry. The zero is kept as the program's own word. -/
def cutRowsTimes2 (h : FVec Ideal S100000x16 .f32) (w : FVec Ideal S16x2 .f32) : FVec Ideal S100000x2 .f32 :=
  fun i => ∑ k : Fin 16, max (h (ix2 (i 0) k)) (Ideal.ofBits .f32 0x00000000#32) * w (ix2 k (i 1))

/-- The stage's body at an entry (p, q) of a block. -/
theorem body1_apply (x0 : FVec Ideal S10000x16 .f32) (x1 : FVec Ideal S16x2 .f32) (p : Fin 10000) (q : Fin 2) :
    k1_pay1 (F := Ideal) x0 x1 (ix2 p q) = ∑ k : Fin 16, max (x0 (ix2 p k)) (Ideal.ofBits .f32 0x00000000#32) * x1 (ix2 k q) := by
  unfold k1_pay1
  simp only [shapeCast_self]
  refine (Cert.PlainLayers.plainMM_of_eq dot_S10000x16_S16x2_S10000x2_1_0_0_1_n_n rfl none _ _ p q).trans ?_
  exact Finset.sum_congr rfl fun k _ => rfl

/-- One block's entry against the whole-array function. -/
theorem block1_apply (x0 : FVec Ideal S10000x16 .f32) (x1 : FVec Ideal S16x2 .f32)
    (H : FVec Ideal S100000x16 .f32) (W : FVec Ideal S16x2 .f32) (j : S10000x2.Idx) (i : S100000x2.Idx)
    (h0 : ∀ k : Fin 16, x0 (ix2 (j 0) k) = H (ix2 (i 0) k)) (h1 : ∀ k : Fin 16, x1 (ix2 k (j 1)) = W (ix2 k (i 1))) :
    k1_pay1 (F := Ideal) x0 x1 j = cutRowsTimes2 H W i := by
  rw [eq_ix2 j]
  refine (body1_apply x0 x1 (j 0) (j 1)).trans ?_
  exact Finset.sum_congr rfl fun k _ => congrArg₂ (· * ·) (congrArg (max · (Ideal.ofBits .f32 0x00000000#32)) (h0 k)) (h1 k)

/-- The printed block positions over the ten grid points. -/
theorem positions1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 :=
  (by decide +kernel : ∀ t : Fin grid1.N, _)

/-- Every row block of the output is some grid point's. -/
theorem onto1 : ∀ q0 : Fin 10, ∃ t : Fin cfg1.N, win1_2.index t (0 : Fin 2) = q0.val :=
  (by decide +kernel : ∀ q0 : Fin 10, ∃ t : Fin grid1.N, win1_2.index t (0 : Fin 2) = q0.val)

/-- What grid point t writes back is block t of the whole-array function of the arrays the stage finds. -/
theorem flushed1_eq (c : Dev nD) (t : Fin cfg1.N) :
    (dat1 V c).flushed 2 t = ((cfg1.win 2).blk t).view.read (Elt Ideal) (cutRowsTimes2 (V c main_v43) (V c main_arg4)) := by
  show (cfg1.win 2).cut (grid1.coords t) ((dat1 V c).after 2 t) = _
  rw [after1_2]
  unfold out1_2
  rw [View.canon_unit_zero zeroOffsets1]
  simp only [View.ld_unit_zero (S := S10000x16) zeroOffsets1, View.ld_unit_zero (S := S16x2) zeroOffsets1]
  obtain ⟨e0, e1, e2, e3, e4⟩ := positions1 t
  funext j
  show k1_pay1 (F := Ideal) (iblk1 V c 0 t) (iblk1 V c 1 t) j = cutRowsTimes2 (V c main_v43) (V c main_arg4) (((cfg1.win 2).blk t).view.emb j)
  refine block1_apply _ _ _ _ j _ (fun k => ?_) (fun k => ?_)
  · show V c main_v43 (((cfg1.win 0).blk t).view.emb (ix2 (j 0) k)) = V c main_v43 (ix2 ((((cfg1.win 2).blk t).view.emb j) 0) k)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  · show V c main_arg4 (((cfg1.win 1).blk t).view.emb (ix2 k (j 1))) = V c main_arg4 (ix2 k ((((cfg1.win 2).blk t).view.emb j) 1))
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 2 + 1 * (j 1).val = win1_2.index t (1 : Fin 2) * 2 + 1 * (j 1).val; omega

/-- An index of the output array is in point t's block iff each coordinate is in the block's range on its axis. -/
theorem mem_blk1 (t : Fin cfg1.N) (i : S100000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v44).slice (win1_2.rect t)).set ↔ _
  rw [View.set_slice_whole, Rect.mem_set_unit]
  exact Iff.rfl

/-- The output array after the stage: the whole-array function of the arrays the stage finds. -/
theorem array1 (c : Dev nD) : (dat1 V c).arrAt 2 cfg1.N = cutRowsTimes2 (V c main_v43) (V c main_arg4) :=
  (dat1 V c).arrAt_eq_of_cover 2 _ (fun t _ => flushed1_eq V c t) fun i => by
    have hi0 : (i 0).val < 100000 := (i 0).isLt
    have hi1 : (i 1).val < 2 := (i 1).isLt
    obtain ⟨t, ht⟩ := onto1 ⟨(i 0).val / 10000, by omega⟩
    obtain ⟨e0, e1, e2, e3, e4⟩ := positions1 t
    have q0 : win1_2.index t (0 : Fin 2) = (i 0).val / 10000 := ht
    refine ⟨t, flush1_2 t, ?_⟩
    rw [mem_blk1]
    intro a
    match a with
    | ⟨0, _⟩ => show win1_2.index t (0 : Fin 2) * 10000 ≤ (i 0).val ∧ (i 0).val < win1_2.index t (0 : Fin 2) * 10000 + 10000; omega
    | ⟨1, _⟩ => show win1_2.index t (1 : Fin 2) * 2 ≤ (i 1).val ∧ (i 1).val < win1_2.index t (1 : Fin 2) * 2 + 2; omega

end Cert.KernelIdeal.Hand

end
-- ==== Proof.LibSoftmaxRows.lean ====
/-
  General lemmas for kernels that pool over a leading axis and take a softmax along the last axis, read at the exact
  (extended-real) instance. Generic in the extents.

  * `leadSum_apply`: a sum of a [C, A, B] array along its FIRST axis is at (p, q) the plain sum over c of the array at (c, p, q).
  * `leadMax_apply`: a maximum of a [C, A, B] array along its first axis, from a starting pattern, is at (p, q) the fold of
    max from that pattern's value over c of the array at (c, p, q).
  * `rowMax_apply`: a maximum of an [A, B] array along its last axis is at p the fold of max over k of the array at (p, k).
  * `keepdimsMax_apply`: the same kept as an [A, 1] column, at (p, u).
  * `broadcastTo_1ab_cab_apply`: a [1, A, B] array repeated C times along the first axis reads, at (c, p, q), the array at (0, p, q).
  * `softmaxRows_apply`: the softmax of an [A, B] array along its last axis as a kernel body spells it — row maximum from minus
    infinity kept as a column and repeated along the rows, subtracted, exponentiated, the row sum of that kept as a column and
    repeated, the quotient — is at (p, q) exp (f (p, q) − M) / ∑ₖ exp (f (p, k) − M), M the fold of max over the row.
-/
import Idealize.ShloMosaic.Lib.ValueIdx
import Idealize.ShloMosaic.Lib.ValueLayout
import Idealize.ShloMosaic.Lib.Pipeline.Value
import Idealize.ShloMosaic.PureOps.Ideal.Laws
import proofs.«107536_j23244363006342_2_alg».proof.Proof.LibColumns

noncomputable section

open scoped BigOperators

namespace Cert.SoftmaxRows

open Idealize.ShloMosaic Idealize.ShloMosaic.ValueIdx

/-! ## Pooling over the first axis of a rank-three array -/

/-- The sum of a [C, A, B] array along its first axis, at (p, q): the sum over c of the array at (c, p, q). -/
theorem leadSum_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.add.neutral φ hφ)
    (p : Fin A) (q : Fin B) :
    multiReduction .add [0] ⟨2, ![A, B]⟩ src acc h hφ hacc (ix2 p q) = ∑ c : Fin C, src (ix3 c p q) := by
  refine (Ideal.multiReduction_add_single src acc h hφ hacc (ix2 p q)).trans ?_
  refine Finset.sum_congr rfl fun k _ => congrArg src (funext fun d => Fin.ext ?_)
  rw [h.lift_val]
  match d with
  | ⟨0, _⟩ => rfl
  | ⟨1, _⟩ => rfl
  | ⟨2, _⟩ => rfl

/-- The maximum of a [C, A, B] array along its first axis, at (p, q): the fold of max, from the starting pattern's value,
    over c of the array at (c, p, q). -/
theorem leadMax_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.maximumf.neutral φ hφ)
    (p : Fin A) (q : Fin B) :
    multiReduction .maximumf [0] ⟨2, ![A, B]⟩ src acc h hφ hacc (ix2 p q)
      = (Finset.univ : Finset (Fin C)).fold max (Ideal.ofBits φ acc) (fun c => src (ix3 c p q)) := by
  refine (Ideal.multiReduction_maximumf_single src acc h hφ hacc (ix2 p q)).trans ?_
  refine congrArg ((Finset.univ : Finset (Fin C)).fold max (Ideal.ofBits φ acc)) (funext fun k => congrArg src (funext fun d => Fin.ext ?_))
  rw [h.lift_val]
  match d with
  | ⟨0, _⟩ => rfl
  | ⟨1, _⟩ => rfl
  | ⟨2, _⟩ => rfl

/-! ## A row's maximum -/

/-- The maximum of an [A, B] array along its last axis, at p: the fold of max over k of the array at (p, k). -/
theorem rowMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  refine (Ideal.multiReduction_maximumf_single src acc h hφ hacc (ix1 p)).trans ?_
  refine congrArg ((Finset.univ : Finset (Fin B)).fold max (Ideal.ofBits φ acc)) (funext fun k => congrArg src (funext fun d => Fin.ext ?_))
  rw [h.lift_val]
  match d with
  | ⟨0, _⟩ => rfl
  | ⟨1, _⟩ => rfl

/-- The same kept as an [A, 1] column: at (p, u) the fold of max over the row p. -/
theorem keepdimsMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (hs : (⟨1, ![A]⟩ : Shape).ShapeCasts ⟨2, ![A, 1]⟩) (p : Fin A) (u : Fin 1) :
    shapeCast ⟨2, ![A, 1]⟩ (multiReduction .maximumf [1] ⟨1, ![A]⟩ src acc h hφ hacc) hs (ix2 p u)
      = (Finset.univ : Finset (Fin B)).fold max (Ideal.ofBits φ acc) (fun k => src (ix2 p k)) :=
  (Cert.DenseRows.shapeCast_a_a1_apply _ hs p u).trans (rowMax_apply src acc h hφ hacc p)

/-! ## One plane repeated along a new first axis -/

/-- A [1, A, B] array broadcast to [C, A, B] reads, at (c, p, q), the array at (0, p, q). -/
theorem broadcastTo_1ab_cab_apply {α : Type} {C A B : ℕ} (v : (⟨3, ![1, A, B]⟩ : Shape).Idx → α)
    (h : (⟨3, ![1, A, B]⟩ : Shape).Broadcasts ⟨3, ![C, A, B]⟩) (c : Fin C) (p : Fin A) (q : Fin B) :
    broadcastTo ⟨3, ![C, A, B]⟩ v h (ix3 c p q) = v (ix3 (0 : Fin 1) p q) := by
  have hA : A = 1 → p.val = 0 := fun e => by have := p.isLt; omega
  have hB : B = 1 → q.val = 0 := fun e => by have := q.isLt; omega
  refine broadcastTo_apply v h (ix3 c p q) (ix3 (0 : Fin 1) p q) fun ax => ?_
  match ax with
  | ⟨0, _⟩ => rfl
  | ⟨1, _⟩ =>
    show p.val = if A = 1 then 0 else p.val
    split
    · exact hA ‹_›
    · rfl
  | ⟨2, _⟩ =>
    show q.val = if B = 1 then 0 else q.val
    split
    · exact hB ‹_›
    · rfl

/-! ## The softmax along the last axis, as a kernel body spells it -/

/-- Row maximum from minus infinity kept as a column and repeated along the rows, subtracted, exponentiated; the row sum of
    that kept as a column and repeated; the quotient. At (p, q): exp (f (p, q) − M) / ∑ₖ exp (f (p, k) − M), where M is the
    fold of max over row p from the starting pattern's value. -/
theorem softmaxRows_apply {A B : ℕ} (f : FVec Ideal ⟨2, ![A, B]⟩ .f32) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩)
    (p : Fin A) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (f (ix2 p q) - (Finset.univ : Finset (Fin B)).fold max (Ideal.ofBits .f32 lo) (fun k => f (ix2 p k))))
          (∑ k : Fin B, Ideal.exp (f (ix2 p k) - (Finset.univ : Finset (Fin B)).fold max (Ideal.ofBits .f32 lo) (fun k => f (ix2 p k)))) := by
  have hm : ∀ k : Fin B,
      broadcastTo ⟨2, ![A, B]⟩ (shapeCast ⟨2, ![A, 1]⟩ (multiReduction .maximumf [1] ⟨1, ![A]⟩ f lo hr hφ hmax) hs) hb (ix2 p k)
        = (Finset.univ : Finset (Fin B)).fold max (Ideal.ofBits .f32 lo) (fun k => f (ix2 p k)) := fun k =>
    (Cert.Columns.broadcastTo_a1_ab_apply _ hb p k).trans (keepdimsMax_apply f lo hr hφ hmax hs p 0)
  have he : ∀ k : Fin B,
      exp (subf f (broadcastTo ⟨2, ![A, B]⟩ (shapeCast ⟨2, ![A, 1]⟩ (multiReduction .maximumf [1] ⟨1, ![A]⟩ f lo hr hφ hmax) hs) hb)) (ix2 p k)
        = Ideal.exp (f (ix2 p k) - (Finset.univ : Finset (Fin B)).fold max (Ideal.ofBits .f32 lo) (fun k => f (ix2 p k))) := fun k =>
    congrArg (fun z => Ideal.exp (f (ix2 p k) - z)) (hm k)
  refine congrArg₂ Ideal.div (he q) ?_
  refine ((Cert.Columns.broadcastTo_a1_ab_apply _ hb p q).trans (Cert.Columns.keepdimsSum_apply _ _ hr hφ hadd hs p 0)).trans ?_
  exact Finset.sum_congr rfl fun k _ => he k

end Cert.SoftmaxRows

end
-- ==== Proof.Stage2.lean ====
/-
  The third tiled stage: the logarithm of the softmax along each row.

  The stage cuts the 100000 rows of its operand into ten blocks of 10000 rows and works on each row by itself: with M the
  largest entry of the row (a maximum folded from minus infinity), entry q becomes (a q − M) − log ∑ₖ exp (a k − M). A row of the
  result depends only on the same row of the operand, so the ten output blocks are the restrictions of ONE whole-array
  function, which is what the output array ends holding.
-/
import proofs.«107536_j23244363006342_2_alg».proof.Proof.Gen.KernelIdeal.Frame
import proofs.«107536_j23244363006342_2_alg».proof.Proof.LibSoftmaxRows
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- A row's maximum, folded from the program's own word for minus infinity. -/
def rowTop (row : Fin 2 → EReal) : EReal :=
  (Finset.univ : Finset (Fin 2)).fold max (Ideal.ofBits .f32 0xFF800000#32) row

/-- One entry of the logarithm of a row's softmax. -/
def logSoftmaxEntry (row : Fin 2 → EReal) (q : Fin 2) : EReal :=
  (row q - rowTop row) - Ideal.log (∑ k : Fin 2, Ideal.exp (row k - rowTop row))

/-- The whole-array function: every row's log-softmax. -/
def logSoftmaxRows (a : FVec Ideal S100000x2 .f32) : FVec Ideal S100000x2 .f32 :=
  fun i => logSoftmaxEntry (fun k => a (ix2 (i 0) k)) (i 1)

/-- The stage's body at an entry (p, q) of a block. -/
theorem body2_apply (x0 : FVec Ideal S10000x2 .f32) (p : Fin 10000) (q : Fin 2) :
    k2_pay1 (F := Ideal) x0 (ix2 p q) = logSoftmaxEntry (fun k => x0 (ix2 p k)) q := by
  unfold k2_pay1
  simp only [shapeCast_self]
  have hm : ∀ k : Fin 2,
      broadcastTo S10000x2 (shapeCast S10000x1 (multiReduction (F := Ideal) .maximumf [1] S10000 x0 0xFF800000#32 reduces_S10000x2_S10000 (.inl rfl) rfl) shapeCasts_S10000_S10000x1) broadcasts_S10000x1_S10000x2 (ix2 p k)
        = rowTop (fun k => x0 (ix2 p k)) := fun k =>
    (Cert.Columns.broadcastTo_a1_ab_apply _ broadcasts_S10000x1_S10000x2 p k).trans
      (Cert.SoftmaxRows.keepdimsMax_apply x0 _ reduces_S10000x2_S10000 _ _ shapeCasts_S10000_S10000x1 p 0)
  refine congrArg₂ (· - ·) (congrArg (x0 (ix2 p q) - ·) (hm q)) ?_
  refine (Cert.Columns.broadcastTo_a1_ab_apply _ broadcasts_S10000x1_S10000x2 p q).trans ?_
  refine congrArg Ideal.log ?_
  refine (Cert.Columns.keepdimsSum_apply _ _ reduces_S10000x2_S10000 _ _ shapeCasts_S10000_S10000x1 p 0).trans ?_
  exact Finset.sum_congr rfl fun k _ => congrArg (fun z => Ideal.exp (x0 (ix2 p k) - z)) (hm k)

/-- One block's entry against the whole-array function: row (j 0) of the block is row (i 0) of the array, same column. -/
theorem block2_apply (x0 : FVec Ideal S10000x2 .f32) (A : FVec Ideal S100000x2 .f32) (j : S10000x2.Idx) (i : S100000x2.Idx)
    (h0 : ∀ k : Fin 2, x0 (ix2 (j 0) k) = A (ix2 (i 0) k)) (h1 : (j 1).val = (i 1).val) :
    k2_pay1 (F := Ideal) x0 j = logSoftmaxRows A i := by
  rw [eq_ix2 j]
  refine (body2_apply x0 (j 0) (j 1)).trans ?_
  show logSoftmaxEntry (fun k => x0 (ix2 (j 0) k)) (j 1) = logSoftmaxEntry (fun k => A (ix2 (i 0) k)) (i 1)
  rw [show (fun k : Fin 2 => x0 (ix2 (j 0) k)) = fun k => A (ix2 (i 0) k) from funext h0]
  exact congrArg _ (Fin.ext h1)

/-- The printed block positions over the ten grid points. -/
theorem positions2 : ∀ t : Fin cfg2.N, win2_0.index t (0 : Fin 2) = win2_1.index t (0 : Fin 2) ∧ win2_0.index t (1 : Fin 2) = 0
    ∧ win2_1.index t (1 : Fin 2) = 0 :=
  (by decide +kernel : ∀ t : Fin grid2.N, _)

/-- Every row block of the output is some grid point's. -/
theorem onto2 : ∀ q0 : Fin 10, ∃ t : Fin cfg2.N, win2_1.index t (0 : Fin 2) = q0.val :=
  (by decide +kernel : ∀ q0 : Fin 10, ∃ t : Fin grid2.N, win2_1.index t (0 : Fin 2) = q0.val)

/-- What grid point t writes back is block t of the whole-array function of the array the stage finds. -/
theorem flushed2_eq (c : Dev nD) (t : Fin cfg2.N) :
    (dat2 V c).flushed 1 t = ((cfg2.win 1).blk t).view.read (Elt Ideal) (logSoftmaxRows (V c main_v60)) := by
  show (cfg2.win 1).cut (grid2.coords t) ((dat2 V c).after 1 t) = _
  rw [after2_1]
  unfold out2_1
  rw [View.canon_unit_zero zeroOffsets2]
  simp only [View.ld_unit_zero (S := S10000x2) zeroOffsets2]
  obtain ⟨e0, e1, e2⟩ := positions2 t
  funext j
  show k2_pay1 (F := Ideal) (iblk2 V c 0 t) j = logSoftmaxRows (V c main_v60) (((cfg2.win 1).blk t).view.emb j)
  refine block2_apply _ _ j _ (fun k => ?_) ?_
  · show V c main_v60 (((cfg2.win 0).blk t).view.emb (ix2 (j 0) k)) = V c main_v60 (ix2 ((((cfg2.win 1).blk t).view.emb j) 0) k)
    refine congrArg (V c main_v60) (funext fun a => Fin.ext ?_)
    match a with
    | ⟨0, _⟩ => show win2_0.index t (0 : Fin 2) * 10000 + 1 * (j 0).val = win2_1.index t (0 : Fin 2) * 10000 + 1 * (j 0).val; omega
    | ⟨1, _⟩ => show win2_0.index t (1 : Fin 2) * 2 + 1 * k.val = k.val; omega
  · show (j 1).val = win2_1.index t (1 : Fin 2) * 2 + 1 * (j 1).val; omega

/-- An index of the output array is in point t's block iff each coordinate is in the block's range on its axis. -/
theorem mem_blk2 (t : Fin cfg2.N) (i : S100000x2.Idx) :
    i ∈ ((cfg2.win 1).blk t).view.set ↔ ∀ a : Fin 2, win2_1.index t a * S10000x2.size a ≤ (i a).val ∧ (i a).val < win2_1.index t a * S10000x2.size a + S10000x2.size a := by
  show i ∈ ((View.whole main_v61).slice (win2_1.rect t)).set ↔ _
  rw [View.set_slice_whole, Rect.mem_set_unit]
  exact Iff.rfl

/-- The output array after the stage: every row's log-softmax of the array the stage finds. -/
theorem array2 (c : Dev nD) : (dat2 V c).arrAt 1 cfg2.N = logSoftmaxRows (V c main_v60) :=
  (dat2 V c).arrAt_eq_of_cover 1 _ (fun t _ => flushed2_eq V c t) fun i => by
    have hi0 : (i 0).val < 100000 := (i 0).isLt
    have hi1 : (i 1).val < 2 := (i 1).isLt
    obtain ⟨t, ht⟩ := onto2 ⟨(i 0).val / 10000, by omega⟩
    obtain ⟨e0, e1, e2⟩ := positions2 t
    have q0 : win2_1.index t (0 : Fin 2) = (i 0).val / 10000 := ht
    refine ⟨t, flush2_1 t, ?_⟩
    rw [mem_blk2]
    intro a
    match a with
    | ⟨0, _⟩ => show win2_1.index t (0 : Fin 2) * 10000 ≤ (i 0).val ∧ (i 0).val < win2_1.index t (0 : Fin 2) * 10000 + 10000; omega
    | ⟨1, _⟩ => show win2_1.index t (1 : Fin 2) * 2 ≤ (i 1).val ∧ (i 1).val < win2_1.index t (1 : Fin 2) * 2 + 2; omega

end Cert.KernelIdeal.Hand

end
-- ==== Proof.Bridge.lean ====
/-
  The three tiled stages against the reference's own stages.

  The reference computes the same three things with whole-array operations: a matrix product of all 100000 rows at once, a
  maximum with zero followed by a second whole product, and a row-wise log-softmax spelt as a maximum along the rows started
  from minus infinity (and joined once more with minus infinity, which changes nothing), a subtraction, an exponential, a
  sum along the rows started from zero, a logarithm and a second subtraction. Entry by entry these are the functions the
  tiled stages leave in their output arrays: both matrix products are plain sums over the contracted index, so the order
  and the grouping of the additions are not in them, and the maximum of minus infinity with a maximum folded from minus
  infinity is that maximum. Wherever a stage's operand is itself a long term it is first replaced by a variable: the
  equations below are about the last few operations only.
-/
import proofs.«107536_j23244363006342_2_alg».proof.Proof.Stage0
import proofs.«107536_j23244363006342_2_alg».proof.Proof.Stage1
import proofs.«107536_j23244363006342_2_alg».proof.Proof.Stage2
import proofs.«107536_j23244363006342_2_alg».proof.Proof.RefReadPatched
import Idealize.ShloMosaic.PureOps.Ideal.Laws
import Mathlib.Data.Finset.Fold

set_option maxRecDepth 16384

noncomputable section

open scoped BigOperators

namespace Cert.Bridge

open Idealize.ShloMosaic Idealize.ShloMosaic.ValueIdx
open Cert.ReferenceIdeal Cert.ReferenceIdeal.Gen Cert.ReferenceIdeal.ReadP Cert.KernelIdeal.Hand

/-- The first whole product is the first tiled stage's function. -/
theorem product16_eq (x0 : FVec Ideal S100000x256 .f32) (x2 : FVec Ideal S256x16 .f32) :
    rowsTimes16 x0 x2 = val_main_v27 (F := Ideal) x0 x2 := by
  funext i
  rw [val_main_v27_apply]
  refine Finset.sum_congr rfl fun k _ => congrArg₂ (· * ·) (congrArg x0 (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

/-- The maximum with zero and the second whole product are the second tiled stage's function of the first layer's output. -/
theorem product2_eq (x0 : FVec Ideal S100000x256 .f32) (x1 : (⟨S2x3200000, .i32⟩ : BufTy).Contents (Elt Ideal)) (x2 : FVec Ideal S256x16 .f32) (x3 : FVec Ideal S16 .f32) (x4 : FVec Ideal S16x2 .f32) :
    cutRowsTimes2 (val_main_v43 (F := Ideal) x0 x1 x2 x3) x4 = val_main_v65 (F := Ideal) x0 x1 x2 x3 x4 := by
  funext i
  generalize hH : val_main_v43 (F := Ideal) x0 x1 x2 x3 = H
  have h44 : ∀ j : S100000x16.Idx,
      val_main_v44 (F := Ideal) x0 x1 x2 x3 j = max (H j) (Ideal.ofBits .f32 0x00000000#32) := fun j => by
    rw [val_main_v44_apply, hH, val_main_call0_v0_apply, val_main_call0_cst_apply]; rfl
  rw [val_main_v65_apply]
  refine Finset.sum_congr rfl fun k _ => ?_
  rw [h44 (lidx_main_v65 i k)]
  refine congrArg₂ (· * ·) (congrArg (max · (Ideal.ofBits .f32 0x00000000#32)) (congrArg H (funext fun a => Fin.ext ?_)))
    (congrArg x4 (funext fun a => Fin.ext ?_))
  · match a with
    | ⟨0, _⟩ => rfl
    | ⟨1, _⟩ => rfl
  · match a with
    | ⟨0, _⟩ => rfl
    | ⟨1, _⟩ => rfl

/-- The reference's row maximum of any array: the maximum along row p started from minus infinity, joined once more with
    minus infinity, is the row's maximum folded from minus infinity. -/
theorem hostTop_eq (A : FVec Ideal S100000x2 .f32) (j : S100000.Idx) (p : Fin 100000) (hj : (j 0).val = p.val) :
    FloatOps.maximumf (F := Ideal) (φ := .f32) (FloatOps.ofBits .f32 0xFF800000#32)
        (Host.reduce (FloatOps.maximumf (F := Ideal) (φ := .f32)) A (val_main_call1_cst (F := Ideal)) reducesTo_S100000x2_S100000_d1 h_S_ j)
      = rowTop (fun k => A (ix2 p k)) := by
  have hred : S100000x2.Reduces [1] S100000 := by decide
  have hfold : Host.reduce (FloatOps.maximumf (F := Ideal) (φ := .f32)) A (val_main_call1_cst (F := Ideal)) reducesTo_S100000x2_S100000_d1 h_S_ j
      = rowTop (fun k => A (ix2 p k)) := by
    refine (Host.reduce_eq_fold_single (max : EReal → EReal → EReal) A _ reducesTo_S100000x2_S100000_d1 hred h_S_ j).trans ?_
    unfold rowTop
    refine congrArg ((Finset.univ : Finset (Fin 2)).fold max (Ideal.ofBits .f32 0xFF800000#32)) (funext fun k => ?_)
    refine congrArg A (funext fun a => Fin.ext ?_)
    rw [hred.lift_val]
    match a with
    | ⟨0, _⟩ => exact hj
    | ⟨1, _⟩ => rfl
  rw [hfold]
  exact max_eq_right ((Finset.le_fold_max _).mpr (Or.inl le_rfl))

/-- The reference's log-softmax is the third tiled stage's function of the second layer's output. -/
theorem logSoftmax_eq (x0 : FVec Ideal S100000x256 .f32) (x1 : (⟨S2x3200000, .i32⟩ : BufTy).Contents (Elt Ideal)) (x2 : FVec Ideal S256x16 .f32) (x3 : FVec Ideal S16 .f32) (x4 : FVec Ideal S16x2 .f32) (x5 : FVec Ideal S2 .f32) :
    logSoftmaxRows (val_main_v81 (F := Ideal) x0 x1 x2 x3 x4 x5) = val_main_v82 (F := Ideal) x0 x1 x2 x3 x4 x5 := by
  funext i
  generalize hA : val_main_v81 (F := Ideal) x0 x1 x2 x3 x4 x5 = A
  have hT : ∀ j : S100000.Idx, (j 0).val = (i 0).val →
      val_main_call1_v2 (F := Ideal) x0 x1 x2 x3 x4 x5 j = rowTop (fun k => A (ix2 (i 0) k)) := fun j hj => by
    rw [val_main_call1_v2_apply, val_main_call1_v1_apply, val_main_call1_cst_0_apply]
    unfold val_main_call1_v0
    rw [hA]
    exact hostTop_eq A j (i 0) hj
  have hS : ∀ j : S100000x2.Idx, (j 0).val = (i 0).val →
      val_main_call1_v5 (F := Ideal) x0 x1 x2 x3 x4 x5 j = A j - rowTop (fun k => A (ix2 (i 0) k)) := fun j hj => by
    rw [val_main_call1_v5_apply, hA, val_main_call1_v4_apply, val_main_call1_v3_apply,
      hT (idx_main_call1_v3 (idx_main_call1_v4 j)) hj]
    rfl
  rw [val_main_v82_apply, hS i rfl, val_main_call1_v10_apply, val_main_call1_v9_apply, val_main_call1_v8_apply,
    val_main_call1_v7_apply, val_main_call1_cst_1_apply, Ideal.hostUnary_log_def]
  show logSoftmaxEntry (fun k => A (ix2 (i 0) k)) (i 1) = _
  unfold logSoftmaxEntry
  refine congrArg₂ (· - ·) (congrArg (· - rowTop (fun k => A (ix2 (i 0) k))) (congrArg A (eq_ix2 i).symm)) ?_
  refine congrArg Ideal.log ?_
  rw [show FloatOps.ofBits (F := Ideal) .f32 0x00000000#32 = 0 from Ideal.ofBits_zero_f32, zero_add]
  refine Finset.sum_congr rfl fun k _ => ?_
  rw [val_main_call1_v6_apply, Ideal.hostUnary_exp_def, hS (idx_main_call1_v7 (idx_main_call1_v8 (idx_main_call1_v10 i)) k) rfl]
  refine congrArg Ideal.exp (congrArg (· - rowTop (fun k => A (ix2 (i 0) k))) (congrArg A (funext fun a => Fin.ext ?_)))
  match a with
  | ⟨0, _⟩ => rfl
  | ⟨1, _⟩ => rfl

end Cert.Bridge

end
-- ==== Proof.KernelValue.lean ====
/-
  The result of the idealized kernel, followed back through the boundaries of its run.

  The run passes seven boundaries: the launch, then alternately the end of a stretch of whole-array operations and the end of
  a tiled stage. At each boundary the arrays that later steps read are identified with the reference's own stages of the six
  launch arguments:
    * after the first stretch: the source and destination index arrays (the edge list with one self loop per node
      appended) and the edge weights (the product of the reciprocal square roots of the two end nodes' degrees);
    * after the first tiled stage: the first layer's product, rows times the first weight matrix;
    * after the second stretch: the first layer's output, the weighted rows gathered by source and added up by destination,
      plus the bias;
    * after the second tiled stage: the maximum of that with zero, times the second weight matrix;
    * after the third stretch: the second layer's output, aggregated the same way with the same edge weights (the
      reference computes the degrees and the weights a second time; they are the same terms);
    * after the third tiled stage: every row's log-softmax.
  A stretch's operations applied to identified operands are the reference's stage by unfolding; a tiled stage's output is
  its whole-array function, which is the reference's stage entry by entry.
-/
import proofs.«107536_j23244363006342_2_alg».proof.Proof.KernelRun
import proofs.«107536_j23244363006342_2_alg».proof.Proof.Bridge
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch of whole-array operations -/

theorem b1_v3 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  dsimp only [hostOps0]
  after_results
  rfl

theorem b1_v6 (c : Dev nD) : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  dsimp only [hostOps0]
  after_results
  rfl

set_option maxHeartbeats 4000000 in
theorem b1_v26 (c : Dev nD) : W1 m ρ c (Proc.devRef .tc main_v26) = Cert.ReferenceIdeal.ReadP.val_main_v26 (F := Ideal) (m ((c : Thread nD τ).loc main_arg1)) := by
  show StableHlo.after hostOps0 (W0 m ρ c) (Proc.devRef .tc main_v26) = _
  dsimp only [hostOps0]
  after_results_simp
  rfl

theorem b1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results

theorem b1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results

theorem b1_arg3 (c : Dev nD) : W1 m ρ c (Proc.devRef .tc main_arg3) = (m ((c : Thread nD τ).loc main_arg3)) := by
  show StableHlo.after hostOps0 (W0 m ρ c) (Proc.devRef .tc main_arg3) = _
  dsimp only [hostOps0]
  after_results

theorem b1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results

theorem b1_arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results

/-! ## After the first tiled stage -/

theorem b2_v27 (c : Dev nD) : W2 m ρ c (Proc.devRef .tc main_v27) = Cert.ReferenceIdeal.ReadP.val_main_v27 (F := Ideal) (m ((c : Thread nD τ).loc main_arg0)) (m ((c : Thread nD τ).loc main_arg2)) :=
  ((W2_arr m ρ c 2).trans (array0 (V1 m ρ) c)).trans
    ((congrArg₂ rowsTimes16 (b1_arg0 m ρ c) (b1_arg2 m ρ c)).trans (Cert.Bridge.product16_eq _ _))

theorem b2_v3 (c : Dev nD) : W2 m ρ c (Proc.devRef .tc main_v3) = Cert.ReferenceIdeal.ReadP.val_main_v3 (F := Ideal) (m ((c : Thread nD τ).loc main_arg1)) :=
  (W2_of_ne m ρ c main_v3 (by decide)).trans (b1_v3 m ρ c)

theorem b2_v6 (c : Dev nD) : W2 m ρ c (Proc.devRef .tc main_v6) = Cert.ReferenceIdeal.ReadP.val_main_v6 (F := Ideal) (m ((c : Thread nD τ).loc main_arg1)) :=
  (W2_of_ne m ρ c main_v6 (by decide)).trans (b1_v6 m ρ c)

theorem b2_v26 (c : Dev nD) : W2 m ρ c (Proc.devRef .tc main_v26) = Cert.ReferenceIdeal.ReadP.val_main_v26 (F := Ideal) (m ((c : Thread nD τ).loc main_arg1)) :=
  (W2_of_ne m ρ c main_v26 (by decide)).trans (b1_v26 m ρ c)

theorem b2_arg3 (c : Dev nD) : W2 m ρ c (Proc.devRef .tc main_arg3) = (m ((c : Thread nD τ).loc main_arg3)) :=
  (W2_of_ne m ρ c main_arg3 (by decide)).trans (b1_arg3 m ρ c)

theorem b2_arg4 (c : Dev nD) : W2 m ρ c (Proc.devRef .tc main_arg4) = (m ((c : Thread nD τ).loc main_arg4)) :=
  (W2_of_ne m ρ c main_arg4 (by decide)).trans (b1_arg4 m ρ c)

theorem b2_arg5 (c : Dev nD) : W2 m ρ c (Proc.devRef .tc main_arg5) = (m ((c : Thread nD τ).loc main_arg5)) :=
  (W2_of_ne m ρ c main_arg5 (by decide)).trans (b1_arg5 m ρ c)

/-! ## After the second stretch -/

set_option maxHeartbeats 4000000 in
theorem b3_v43 (c : Dev nD) : W3 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v43) = _
  dsimp only [hostOps1]
  after_results_simp
  rw [b2_v27 m ρ c, b2_v3 m ρ c, b2_v6 m ρ c, b2_v26 m ρ c, b2_arg3 m ρ c]
  rfl

theorem b3_v3 (c : Dev nD) : W3 m ρ c (Proc.devRef .tc main_v3) = Cert.ReferenceIdeal.ReadP.val_main_v3 (F := Ideal) (m ((c : Thread nD τ).loc main_arg1)) := by
  show StableHlo.after hostOps1 (W2 m ρ c) (Proc.devRef .tc main_v3) = _
  dsimp only [hostOps1]
  after_results
  exact b2_v3 m ρ c

theorem b3_v6 (c : Dev nD) : W3 m ρ c (Proc.devRef .tc main_v6) = Cert.ReferenceIdeal.ReadP.val_main_v6 (F := Ideal) (m ((c : Thread nD τ).loc main_arg1)) := by
  show StableHlo.after hostOps1 (W2 m ρ c) (Proc.devRef .tc main_v6) = _
  dsimp only [hostOps1]
  after_results
  exact b2_v6 m ρ c

theorem b3_v26 (c : Dev nD) : W3 m ρ c (Proc.devRef .tc main_v26) = Cert.ReferenceIdeal.ReadP.val_main_v26 (F := Ideal) (m ((c : Thread nD τ).loc main_arg1)) := by
  show StableHlo.after hostOps1 (W2 m ρ c) (Proc.devRef .tc main_v26) = _
  dsimp only [hostOps1]
  after_results
  exact b2_v26 m ρ c

theorem b3_arg4 (c : Dev nD) : W3 m ρ c (Proc.devRef .tc main_arg4) = (m ((c : Thread nD τ).loc main_arg4)) := by
  show StableHlo.after hostOps1 (W2 m ρ c) (Proc.devRef .tc main_arg4) = _
  dsimp only [hostOps1]
  after_results
  exact b2_arg4 m ρ c

theorem b3_arg5 (c : Dev nD) : W3 m ρ c (Proc.devRef .tc main_arg5) = (m ((c : Thread nD τ).loc main_arg5)) := by
  show StableHlo.after hostOps1 (W2 m ρ c) (Proc.devRef .tc main_arg5) = _
  dsimp only [hostOps1]
  after_results
  exact b2_arg5 m ρ c

/-! ## After the second tiled stage -/

theorem b4_v44 (c : Dev nD) : W4 m ρ c (Proc.devRef .tc main_v44) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W4_arr m ρ c 2).trans (array1 (V3 m ρ) c)).trans
    ((congrArg₂ cutRowsTimes2 (b3_v43 m ρ c) (b3_arg4 m ρ c)).trans (Cert.Bridge.product2_eq _ _ _ _ _))

theorem b4_v3 (c : Dev nD) : W4 m ρ c (Proc.devRef .tc main_v3) = Cert.ReferenceIdeal.ReadP.val_main_v3 (F := Ideal) (m ((c : Thread nD τ).loc main_arg1)) :=
  (W4_of_ne m ρ c main_v3 (by decide)).trans (b3_v3 m ρ c)

theorem b4_v6 (c : Dev nD) : W4 m ρ c (Proc.devRef .tc main_v6) = Cert.ReferenceIdeal.ReadP.val_main_v6 (F := Ideal) (m ((c : Thread nD τ).loc main_arg1)) :=
  (W4_of_ne m ρ c main_v6 (by decide)).trans (b3_v6 m ρ c)

theorem b4_v26 (c : Dev nD) : W4 m ρ c (Proc.devRef .tc main_v26) = Cert.ReferenceIdeal.ReadP.val_main_v26 (F := Ideal) (m ((c : Thread nD τ).loc main_arg1)) :=
  (W4_of_ne m ρ c main_v26 (by decide)).trans (b3_v26 m ρ c)

theorem b4_arg5 (c : Dev nD) : W4 m ρ c (Proc.devRef .tc main_arg5) = (m ((c : Thread nD τ).loc main_arg5)) :=
  (W4_of_ne m ρ c main_arg5 (by decide)).trans (b3_arg5 m ρ c)

/-! ## After the third stretch -/

set_option maxHeartbeats 4000000 in
theorem b5_v60 (c : Dev nD) : W5 m ρ c (Proc.devRef .tc main_v60) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v60) = _
  dsimp only [hostOps2]
  after_results_simp
  rw [b4_v44 m ρ c, b4_v3 m ρ c, b4_v6 m ρ c, b4_v26 m ρ c, b4_arg5 m ρ c]
  rfl

/-! ## After the third tiled stage: the result -/

/-- The result array ends holding the reference's result stage of the six launch arguments. -/
theorem result_eq (c : Dev nD) : W6 m ρ c (Proc.devRef .tc main_v61) = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W6_arr m ρ c 1).trans (array2 (V5 m ρ) c)).trans
    ((congrArg logSoftmaxRows (b5_v60 m ρ c)).trans (Cert.Bridge.logSoftmax_eq _ _ _ _ _ _))

end Cert.KernelIdeal.Hand

end
-- ==== Proof.lean ====
/-
  A two-layer graph network on 100000 nodes and 3.2 million edges, tiled, against its plain reference.

  Both programs add one self loop per node to the edge list, count every node's incoming edges, weight each edge by the
  product of the reciprocal square roots of its two end nodes' counts, and twice do the same step: multiply every node's
  feature row by a weight matrix, gather the products by the edges' sources, scale them by the edge weights, add them up by
  the edges' destinations and add a bias; between the two steps they take the maximum with zero, and at the end the
  log-softmax of every row. The tiled program does the two matrix products (the second after the maximum with zero) and the
  final log-softmax in three stages of ten blocks of 10000 rows each, narrowing the products' operands on the way, which is
  the identity on the extended reals; everything else it does with the same whole-array operations as the reference.

  On the extended reals the two results are one function of the six inputs. Each tiled stage works row by row, so its ten
  output blocks are the restrictions of one whole-array function, and that function is the reference's stage entry by entry:
  a matrix product is a plain sum over the contracted index on either side, and the log-softmax is the same maximum,
  difference, exponential, sum, logarithm and difference (the reference joins its row maximum once more with minus infinity,
  which changes nothing). Between the stages both programs apply the same operations to the same operands. No law that
  could fail at an infinity is used (no distributivity, no cancelling), so the inputs' finiteness is never opened.

  The word-level kernel and the idealized one run, without a fault, and leave their arguments as launched (their frames);
  the reference's frame is its run with the result dropped; the idealization rewrote no operation.
-/
import proofs.«107536_j23244363006342_2_alg».proof.Defs
import proofs.«107536_j23244363006342_2_alg».proof.Proof.Gen.Kernel
import proofs.«107536_j23244363006342_2_alg».proof.Proof.Gen.Kernel.Skeleton
import proofs.«107536_j23244363006342_2_alg».proof.Proof.Gen.Kernel.Launch
import proofs.«107536_j23244363006342_2_alg».proof.Proof.Gen.Kernel.Points
import proofs.«107536_j23244363006342_2_alg».proof.Proof.Gen.Kernel.Frame
import proofs.«107536_j23244363006342_2_alg».proof.Proof.Gen.KernelIdeal
import proofs.«107536_j23244363006342_2_alg».proof.Proof.Gen.KernelIdeal.Skeleton
import proofs.«107536_j23244363006342_2_alg».proof.Proof.Gen.KernelIdeal.Launch
import proofs.«107536_j23244363006342_2_alg».proof.Proof.Gen.KernelIdeal.Points
import proofs.«107536_j23244363006342_2_alg».proof.Proof.Gen.KernelIdeal.Frame
import proofs.«107536_j23244363006342_2_alg».proof.Proof.Gen.ReferenceIdeal
import proofs.«107536_j23244363006342_2_alg».proof.Proof.Gen.Pre_finite_inputs
import Idealize.ShloMosaic.Adequacy
import Idealize.ShloMosaic.Init
import proofs.«107536_j23244363006342_2_alg».proof.Proof.KernelValue

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation: there is nothing to preserve. -/
theorem preserves : Cert.preserves_Kernel_KernelIdeal := trivial

/-- From memories that agree on the six arguments both programs end with the same result array: the reference's result
    stage of the arguments. The kernel's side is its run followed back through its boundaries; the reference's is its run. -/
theorem algebraic : Cert.algebraic_KernelIdeal_ReferenceIdeal := by
  intro m ρ m' ρ' _ hagree
  refine ⟨fun c => Cert.ReferenceIdeal.ReadP.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v82_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
